-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4x1024 : Shape := ⟨3, ![8192, 4, 1024]⟩
abbrev S8192x1024 : Shape := ⟨2, ![8192, 1024]⟩
abbrev S1024 : Shape := ⟨1, ![1024]⟩
abbrev S_ : Shape := ⟨0, ![]⟩

class Facts : Prop where
  bcast_S_S8192x4x1024 : S_.BroadcastsInDim S8192x4x1024 (![] : Fin 0 → Fin S8192x4x1024.rank)
  reducesTo_S8192x4x1024_S_d0_1_2 : S8192x4x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x4x1024 .f32) (main_arg1 : FVec F S8192x1024 .f32) (main_arg2 : FVec F S1024 .f32) (main_arg3 : FVec F S1024 .f32) : IVec S_ 1 :=
  let main_v0 : FVec F S8192x4x1024 .f32 := Host.absf main_arg0
  let main_cst : FVec F S_ .f32 := constant S_ .f32 0x7F800000#32
  let main_v1 : FVec F S8192x4x1024 .f32 := broadcastInDim S8192x4x1024 ![] bcast_S_S8192x4x1024 main_cst
  let main_v2 : IVec S8192x4x1024 1 := cmpf .olt main_v0 main_v1
  let main_c : IVec S_ 1 := constantI S_ 1 1#1
  let main_v3 : IVec S_ 1 := (fun x v => Host.reduce IntOp.andi x v reducesTo_S8192x4x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8192x4x1024 : Shape := ⟨3, ![8192, 4, 1024]⟩
abbrev S8192x1024 : Shape := ⟨2, ![8192, 1024]⟩
abbrev S1024 : Shape := ⟨1, ![1024]⟩
abbrev S1x1024 : Shape := ⟨2, ![1, 1024]⟩
abbrev S512x4x1024 : Shape := ⟨3, ![512, 4, 1024]⟩
abbrev S512x1024 : Shape := ⟨2, ![512, 1024]⟩
abbrev S512x1x1024 : Shape := ⟨3, ![512, 1, 1024]⟩
abbrev S512x4 : Shape := ⟨2, ![512, 4]⟩
abbrev S512x4x1 : Shape := ⟨3, ![512, 4, 1]⟩
abbrev S1x1x1024 : Shape := ⟨3, ![1, 1, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x4x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S8192x4x1024, .f32⟩
  | .local _ .vmem, ⟨0, _⟩ => ⟨S512x4x1024, .f32⟩
  | .local _ .vmem, ⟨1, _⟩ => ⟨S512x4x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x4x1024, .f32⟩
  | .local _ .vmem, ⟨7, _⟩ => ⟨S512x4x1024, .f32⟩
  | _, _ => ⟨S8192x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S512x4x1024_S512x4x1024_0_0_0 : ∀ a, (![0, 0, 0] : Fin 3 → Nat) a + S512x4x1024.size a ≤ S512x4x1024.size a
  h_S512x4x1024 : 0 < S512x4x1024.numel
  shapeCasts_S512x1024_S512x1x1024 : S512x1024.ShapeCasts S512x1x1024
  broadcasts_S512x1x1024_S512x4x1024 : S512x1x1024.Broadcasts S512x4x1024
  reduces_S512x4x1024_S512x4 : S512x4x1024.Reduces [2] S512x4
  shapeCasts_S512x4_S512x4x1 : S512x4.ShapeCasts S512x4x1
  broadcasts_S512x4x1_S512x4x1024 : S512x4x1.Broadcasts S512x4x1024
  shapeCasts_S1x1024_S1x1x1024 : S1x1024.ShapeCasts S1x1x1024
  broadcasts_S1x1x1024_S512x4x1024 : S1x1x1024.Broadcasts S512x4x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4x1024.size a ≤ S8192x4x1024.size a
  hwx0_0 : ∀ i : grid0.Coords, EltTy.bits .f32 = 32 ∨ (Rect.block (s := S8192x4x1024) S512x4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4x1024.size a ≤ S8192x4x1024.size a
  hwx0_4 : ∀ i : grid0.Coords, EltTy.bits .f32 = 32 ∨ (Rect.block (s := S8192x4x1024) S512x4x1024.size (cc0_transform_4 i) (hinb0_4 i)).WholeWords (EltTy.packing .f32)

variable [Facts₀]

abbrev win0_0 : Pipeline.Window sig grid0 :=
  Pipeline.Window.ofSpec (Memref.whole main_arg0) S512x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x4x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4x1024 : Shape := ⟨3, ![8192, 4, 1024]⟩
abbrev S8192x1024 : Shape := ⟨2, ![8192, 1024]⟩
abbrev S1024 : Shape := ⟨1, ![1024]⟩
abbrev S8192 : Shape := ⟨1, ![8192]⟩
abbrev S8192x1 : Shape := ⟨2, ![8192, 1]⟩
abbrev S8192x4 : Shape := ⟨2, ![8192, 4]⟩
abbrev S_ : Shape := ⟨0, ![]⟩
abbrev S8192x4x1 : Shape := ⟨3, ![8192, 4, 1]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x4x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S8192x1, .i32⟩
  | .hbm, ⟨6, _⟩ => ⟨S8192x4, .i32⟩
  | .hbm, ⟨7, _⟩ => ⟨S_, .i32⟩
  | .hbm, ⟨8, _⟩ => ⟨S8192x4, .i32⟩
  | .hbm, ⟨9, _⟩ => ⟨S8192x4, .i1⟩
  | .hbm, ⟨10, _⟩ => ⟨S_, .i32⟩
  | .hbm, ⟨11, _⟩ => ⟨S8192x4, .i32⟩
  | .hbm, ⟨12, _⟩ => ⟨S8192x4, .i32⟩
  | .hbm, ⟨13, _⟩ => ⟨S8192x4, .i32⟩
  | .hbm, ⟨14, _⟩ => ⟨S8192x4x1, .i32⟩
  | .hbm, ⟨15, _⟩ => ⟨S1, .i32⟩
  | .hbm, ⟨16, _⟩ => ⟨S_, .i32⟩
  | .hbm, ⟨17, _⟩ => ⟨S8192x4x1, .i32⟩
  | .hbm, ⟨18, _⟩ => ⟨S8192x4x1, .i1⟩
  | .hbm, ⟨19, _⟩ => ⟨S1x1x1, .i32⟩
  | .hbm, ⟨20, _⟩ => ⟨S8192x4x1, .i32⟩
  | .hbm, ⟨21, _⟩ => ⟨S8192x4x1, .i1⟩
  | .hbm, ⟨22, _⟩ => ⟨S8192x4x1, .i1⟩
  | .hbm, ⟨23, _⟩ => ⟨S_, .i1⟩
  | .hbm, ⟨24, _⟩ => ⟨S8192x4, .i1⟩
  | .hbm, ⟨25, _⟩ => ⟨S8192x4x1024, .f32⟩
  | .hbm, ⟨26, _⟩ => ⟨S8192x4x1024, .i1⟩
  | .hbm, ⟨27, _⟩ => ⟨S_, .f32⟩
  | .hbm, ⟨28, _⟩ => ⟨S8192x4x1024, .f32⟩
  | .hbm, ⟨29, _⟩ => ⟨S8192x4x1024, .f32⟩
  | .hbm, ⟨30, _⟩ => ⟨S8192x4x1024, .f32⟩
  | .hbm, ⟨31, _⟩ => ⟨S_, .f32⟩
  | .hbm, ⟨32, _⟩ => ⟨S8192x4, .f32⟩
  | .hbm, ⟨33, _⟩ => ⟨S8192x4x1, .f32⟩
  | .hbm, ⟨34, _⟩ => ⟨S_, .f32⟩
  | .hbm, ⟨35, _⟩ => ⟨S8192x4x1, .f32⟩
  | .hbm, ⟨36, _⟩ => ⟨S8192x4x1, .f32⟩
  | .hbm, ⟨37, _⟩ => ⟨S8192x4x1024, .f32⟩
  | .hbm, ⟨38, _⟩ => ⟨S8192x4x1024, .f32⟩
  | .hbm, ⟨39, _⟩ => ⟨S8192x4x1024, .f32⟩
  | .hbm, ⟨40, _⟩ => ⟨S_, .f32⟩
  | .hbm, ⟨41, _⟩ => ⟨S8192x4, .f32⟩
  | .hbm, ⟨42, _⟩ => ⟨S8192x4x1, .f32⟩
  | .hbm, ⟨43, _⟩ => ⟨S_, .f32⟩
  | .hbm, ⟨44, _⟩ => ⟨S8192x4x1, .f32⟩
  | .hbm, ⟨45, _⟩ => ⟨S8192x4x1, .f32⟩
  | .hbm, ⟨46, _⟩ => ⟨S8192x4x1024, .f32⟩
  | .hbm, ⟨47, _⟩ => ⟨S8192x4x1024, .f32⟩
  | .hbm, ⟨48, _⟩ => ⟨S_, .f32⟩
  | .hbm, ⟨49, _⟩ => ⟨S8192x4x1, .f32⟩
  | .hbm, ⟨50, _⟩ => ⟨S8192x4x1, .f32⟩
  | .hbm, ⟨51, _⟩ => ⟨S8192x4x1, .f32⟩
  | .hbm, ⟨52, _⟩ => ⟨S8192x4x1024, .f32⟩
  | .hbm, ⟨53, _⟩ => ⟨S8192x4x1024, .f32⟩
  | .hbm, ⟨54, _⟩ => ⟨S1x1x1024, .f32⟩
  | .hbm, ⟨55, _⟩ => ⟨S8192x4x1024, .f32⟩
  | .hbm, ⟨56, _⟩ => ⟨S8192x4x1024, .f32⟩
  | .hbm, ⟨57, _⟩ => ⟨S1x1x1024, .f32⟩
  | .hbm, ⟨58, _⟩ => ⟨S8192x4x1024, .f32⟩
  | .hbm, ⟨59, _⟩ => ⟨S8192x4x1024, .f32⟩
  | _, _ => ⟨S8192x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x4_0_1 : S8192x1.BroadcastsInDim S8192x4 (![0, 1] : Fin 2 → Fin S8192x4.rank)
  bcast_S_S8192x4 : S_.BroadcastsInDim S8192x4 (![] : Fin 0 → Fin S8192x4.rank)
  bcast_S8192x4_S8192x4x1_0_1 : S8192x4.BroadcastsInDim S8192x4x1 (![0, 1] : Fin 2 → Fin S8192x4x1.rank)
  bcast_S_S8192x4x1 : S_.BroadcastsInDim S8192x4x1 (![] : Fin 0 → Fin S8192x4x1.rank)
  bcast_S1_S1x1x1_2 : S1.BroadcastsInDim S1x1x1 (![2] : Fin 1 → Fin S1x1x1.rank)
  bcast_S1x1x1_S8192x4x1_0_1_2 : S1x1x1.BroadcastsInDim S8192x4x1 (![0, 1, 2] : Fin 3 → Fin S8192x4x1.rank)
  reducesTo_S8192x4x1_S8192x4_d2 : S8192x4x1.ReducesTo [2] S8192x4
  h_S_ : 0 < S_.numel
  bcast_S8192x4_S8192x4x1024_0_1 : S8192x4.BroadcastsInDim S8192x4x1024 (![0, 1] : Fin 2 → Fin S8192x4x1024.rank)
  bcast_S_S8192x4x1024 : S_.BroadcastsInDim S8192x4x1024 (![] : Fin 0 → Fin S8192x4x1024.rank)
  reducesTo_S8192x4x1024_S8192x4_d2 : S8192x4x1024.ReducesTo [2] S8192x4
  bcast_S8192x4x1_S8192x4x1024_0_1_2 : S8192x4x1.BroadcastsInDim S8192x4x1024 (![0, 1, 2] : Fin 3 → Fin S8192x4x1024.rank)
  bcast_S1024_S1x1x1024_2 : S1024.BroadcastsInDim S1x1x1024 (![2] : Fin 1 → Fin S1x1x1024.rank)
  bcast_S1x1x1024_S8192x4x1024_0_1_2 : S1x1x1024.BroadcastsInDim S8192x4x1024 (![0, 1, 2] : Fin 3 → Fin S8192x4x1024.rank)
  gather_S8192x1024_S8192x4x1_S8192x4x1024_2_0_n_n_0_2_11024_wf : GatherDims.WF S8192x1024 S8192x4x1 S8192x4x1024 [2] [0] [] [0] [] 2 ![1, 1024]

variable [Facts₀]

def gather_S8192x1024_S8192x4x1_S8192x4x1024_2_0_n_n_0_2_11024 : GatherDims S8192x1024 S8192x4x1 S8192x4x1024 where
  offsetDims := [2]
  collapsedSliceDims := [0]
  operandBatchingDims := []
  startIndicesBatchingDims := []
  startIndexMap := [0]
  indexVectorDim := 2
  sliceSizes := ![1, 1024]
  wf := gather_S8192x1024_S8192x4x1_S8192x4x1024_2_0_n_n_0_2_11024_wf

class Facts : Prop extends Facts₀ where

variable [Facts]
-- ==== Proof.RefRun.lean ====
/-
  The reference program's @main read back as a straight line of host operations, and its run.

  The reference gathers rows of the position table (`jnp.take`, which jax outlines as a function `_take` that itself
  calls `_where`), adds them to the input, and normalises each row of 1024 numbers.  Unfolding the two functions at
  their call sites gives one list of 56 operations; every weakly fair execution of @main terminates with each buffer
  at the fold of these operations over the launch contents.
-/
import proofs.«118128_g82669530513986_cont_sun_c4_203_9_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call of `_take` (and, inside it, of `_where`) unfolded into the call's own
    buffers: the row numbers `0 … 8191` as an iota broadcast over the batch axis (three operations); `_take`'s
    wrap of negative indices (six, and `_where`'s select), its bounds mask (ten), the gather, and the select between
    the gathered rows and the fill value under the mask (five); then the sum with the input and the normalisation
    (thirty). -/
abbrev ops : List (HloOp τ sig (Elt F)) :=
  [
    nullary main_v0 (iotaInDim S8192 32 0),
    unary main_v0 main_v1 (broadcastInDim S8192x1 ![0] bcast_S8192_S8192x1_0 : (⟨S8192, .i32⟩ : BufTy).Contents (Elt F) → (⟨S8192x1, .i32⟩ : BufTy).Contents (Elt F)),
    unary main_v1 main_v2 (broadcastInDim S8192x4 ![0, 1] bcast_S8192x1_S8192x4_0_1 : (⟨S8192x1, .i32⟩ : BufTy).Contents (Elt F) → (⟨S8192x4, .i32⟩ : BufTy).Contents (Elt F)),
    TRef.nullary main_call0.c (constantI S_ 32 0#32),
    TRef.unary main_call0.c main_call0.v0 (broadcastInDim S8192x4 ![] bcast_S_S8192x4),
    TRef.binary (.of main_v2) main_call0.v0 main_call0.v1 (cmpi .slt),
    TRef.nullary main_call0.c_0 (constantI S_ 32 8192#32),
    TRef.unary main_call0.c_0 main_call0.v2 (broadcastInDim S8192x4 ![] bcast_S_S8192x4),
    TRef.binary (.of main_v2) main_call0.v2 main_call0.v3 addi,
    TRef.ternary main_call0.v1 main_call0.v3 (.of main_v2) main_call0.call0.v0 select,
    TRef.unary main_call0.call0.v0 main_call0.v5 (broadcastInDim S8192x4x1 ![0, 1] bcast_S8192x4_S8192x4x1_0_1),
    TRef.nullary main_call0.c_1 (constantI S1 32 8191#32),
    TRef.nullary main_call0.c_2 (constantI S_ 32 0#32),
    TRef.unary main_call0.c_2 main_call0.v6 (broadcastInDim S8192x4x1 ![] bcast_S_S8192x4x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S8192x4x1 ![0, 1, 2] bcast_S1x1x1_S8192x4x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x4x1_S8192x4_d2 h_S_),
    TRef.binary (.of main_arg1) main_call0.v5 main_call0.v13 (fun x i => Host.gather gather_S8192x1024_S8192x4x1_S8192x4x1024_2_0_n_n_0_2_11024 x i),
    TRef.unary main_call0.v12 main_call0.v14 (broadcastInDim S8192x4x1024 ![0, 1] bcast_S8192x4_S8192x4x1024_0_1),
    TRef.nullary main_call0.cst (constant S_ .f32 0x7FC00000#32),
    TRef.unary main_call0.cst main_call0.v15 (broadcastInDim S8192x4x1024 ![] bcast_S_S8192x4x1024),
    TRef.ternary main_call0.v14 main_call0.v13 main_call0.v15 main_call0.v16 select,
    binary main_arg0 main_v3 main_v4 (addf : (⟨S8192x4x1024, .f32⟩ : BufTy).Contents (Elt F) → (⟨S8192x4x1024, .f32⟩ : BufTy).Contents (Elt F) → (⟨S8192x4x1024, .f32⟩ : BufTy).Contents (Elt F)),
    nullary main_cst (constant S_ .f32 0x00000000#32),
    binary main_v4 main_cst main_v5 ((fun x v => Host.reduceAdd x v reducesTo_S8192x4x1024_S8192x4_d2 h_S_) : (⟨S8192x4x1024, .f32⟩ : BufTy).Contents (Elt F) → (⟨S_, .f32⟩ : BufTy).Contents (Elt F) → (⟨S8192x4, .f32⟩ : BufTy).Contents (Elt F)),
    unary main_v5 main_v6 (broadcastInDim S8192x4x1 ![0, 1] bcast_S8192x4_S8192x4x1_0_1 : (⟨S8192x4, .f32⟩ : BufTy).Contents (Elt F) → (⟨S8192x4x1, .f32⟩ : BufTy).Contents (Elt F)),
    nullary main_cst_0 (constant S_ .f32 0x44800000#32),
    unary main_cst_0 main_v7 (broadcastInDim S8192x4x1 ![] bcast_S_S8192x4x1 : (⟨S_, .f32⟩ : BufTy).Contents (Elt F) → (⟨S8192x4x1, .f32⟩ : BufTy).Contents (Elt F)),
    binary main_v6 main_v7 main_v8 (Host.divf : (⟨S8192x4x1, .f32⟩ : BufTy).Contents (Elt F) → (⟨S8192x4x1, .f32⟩ : BufTy).Contents (Elt F) → (⟨S8192x4x1, .f32⟩ : BufTy).Contents (Elt F)),
    unary main_v8 main_v9 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_v4 main_v9 main_v10 (subf : (⟨S8192x4x1024, .f32⟩ : BufTy).Contents (Elt F) → (⟨S8192x4x1024, .f32⟩ : BufTy).Contents (Elt F) → (⟨S8192x4x1024, .f32⟩ : BufTy).Contents (Elt F)),
    binary main_v10 main_v10 main_v11 (mulf : (⟨S8192x4x1024, .f32⟩ : BufTy).Contents (Elt F) → (⟨S8192x4x1024, .f32⟩ : BufTy).Contents (Elt F) → (⟨S8192x4x1024, .f32⟩ : BufTy).Contents (Elt F)),
    nullary main_cst_1 (constant S_ .f32 0x00000000#32),
    binary main_v11 main_cst_1 main_v12 ((fun x v => Host.reduceAdd x v reducesTo_S8192x4x1024_S8192x4_d2 h_S_) : (⟨S8192x4x1024, .f32⟩ : BufTy).Contents (Elt F) → (⟨S_, .f32⟩ : BufTy).Contents (Elt F) → (⟨S8192x4, .f32⟩ : BufTy).Contents (Elt F)),
    unary main_v12 main_v13 (broadcastInDim S8192x4x1 ![0, 1] bcast_S8192x4_S8192x4x1_0_1 : (⟨S8192x4, .f32⟩ : BufTy).Contents (Elt F) → (⟨S8192x4x1, .f32⟩ : BufTy).Contents (Elt F)),
    nullary main_cst_2 (constant S_ .f32 0x44800000#32),
    unary main_cst_2 main_v14 (broadcastInDim S8192x4x1 ![] bcast_S_S8192x4x1 : (⟨S_, .f32⟩ : BufTy).Contents (Elt F) → (⟨S8192x4x1, .f32⟩ : BufTy).Contents (Elt F)),
    binary main_v13 main_v14 main_v15 (Host.divf : (⟨S8192x4x1, .f32⟩ : BufTy).Contents (Elt F) → (⟨S8192x4x1, .f32⟩ : BufTy).Contents (Elt F) → (⟨S8192x4x1, .f32⟩ : BufTy).Contents (Elt F)),
    unary main_v8 main_v16 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_v4 main_v16 main_v17 (subf : (⟨S8192x4x1024, .f32⟩ : BufTy).Contents (Elt F) → (⟨S8192x4x1024, .f32⟩ : BufTy).Contents (Elt F) → (⟨S8192x4x1024, .f32⟩ : BufTy).Contents (Elt F)),
    nullary main_cst_3 (constant S_ .f32 0x3727C5AC#32),
    unary main_cst_3 main_v18 (broadcastInDim S8192x4x1 ![] bcast_S_S8192x4x1 : (⟨S_, .f32⟩ : BufTy).Contents (Elt F) → (⟨S8192x4x1, .f32⟩ : BufTy).Contents (Elt F)),
    binary main_v15 main_v18 main_v19 (addf : (⟨S8192x4x1, .f32⟩ : BufTy).Contents (Elt F) → (⟨S8192x4x1, .f32⟩ : BufTy).Contents (Elt F) → (⟨S8192x4x1, .f32⟩ : BufTy).Contents (Elt F)),
    unary main_v19 main_v20 (Host.sqrt : (⟨S8192x4x1, .f32⟩ : BufTy).Contents (Elt F) → (⟨S8192x4x1, .f32⟩ : BufTy).Contents (Elt F)),
    unary main_v20 main_v21 (broadcastInDim S8192x4x1024 ![0, 1, 2] bcast_S8192x4x1_S8192x4x1024_0_1_2 : (⟨S8192x4x1, .f32⟩ : BufTy).Contents (Elt F) → (⟨S8192x4x1024, .f32⟩ : BufTy).Contents (Elt F)),
    binary main_v17 main_v21 main_v22 (Host.divf : (⟨S8192x4x1024, .f32⟩ : BufTy).Contents (Elt F) → (⟨S8192x4x1024, .f32⟩ : BufTy).Contents (Elt F) → (⟨S8192x4x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v22 main_v24 main_v25 (mulf : (⟨S8192x4x1024, .f32⟩ : BufTy).Contents (Elt F) → (⟨S8192x4x1024, .f32⟩ : BufTy).Contents (Elt F) → (⟨S8192x4x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S8192x4x1024 ![0, 1, 2] bcast_S1x1x1024_S8192x4x1024_0_1_2 : (⟨S1x1x1024, .f32⟩ : BufTy).Contents (Elt F) → (⟨S8192x4x1024, .f32⟩ : BufTy).Contents (Elt F)),
    binary main_v25 main_v27 main_v28 (addf : (⟨S8192x4x1024, .f32⟩ : BufTy).Contents (Elt F) → (⟨S8192x4x1024, .f32⟩ : BufTy).Contents (Elt F) → (⟨S8192x4x1024, .f32⟩ : BufTy).Contents (Elt F)) ]

set_option maxRecDepth 2048 in
/-- @main is that straight line: the functions' definitions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every weakly fair execution of @main terminates, and every final state has each buffer at the fold of the
    operations over the launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HostRun

end
-- ==== Proof.RefStages.lean ====
/-
  What the reference computes, stage by stage, as whole-array functions of its arguments.

  `taken pe` is the reference's `jnp.take(pos_table, pos, axis=0)` with `pos[s, b] = s`: a gather of rows of the
  position table under a bounds mask.  `normalised h g b` is the row normalisation of `h` with gain `g` and bias `b`.
  The run's result buffer holds `normalised (x + taken pe) g b`.
-/
import proofs.«118128_g82669530513986_cont_sun_c4_203_9_alg».proof.Proof.RefRun
import Idealize.ShloMosaic.Lib.IdealHost
import Idealize.ShloMosaic.Lib.ValueIdx

noncomputable section

namespace Cert.ReferenceIdeal.RefStages

open Cert.ReferenceIdeal Cert.ReferenceIdeal.Gen Idealize.ShloMosaic Idealize.ShloMosaic.TcCoe Idealize.SL.Sem Idealize.ShloMosaic.StableHlo

/-- The row number of each (row, batch) position, as a 32-bit word: an iota along the rows, broadcast over the batch. -/
def rowIdx : IVec S8192x4 32 :=
  broadcastInDim S8192x4 ![0, 1] bcast_S8192x1_S8192x4_0_1
    (broadcastInDim S8192x1 ![0] bcast_S8192_S8192x1_0 (iotaInDim S8192 32 0))

/-- `jnp.take`'s wrap of negative indices: `i + 8192` where `i < 0`, else `i`. -/
def wrapIdx : IVec S8192x4 32 :=
  select (cmpi .slt rowIdx (broadcastInDim S8192x4 ![] bcast_S_S8192x4 (constantI S_ 32 0#32)))
    (addi rowIdx (broadcastInDim S8192x4 ![] bcast_S_S8192x4 (constantI S_ 32 8192#32))) rowIdx

/-- The gather's start indices: one index (a row of the table) per (row, batch) position. -/
def startIdx : IVec S8192x4x1 32 := broadcastInDim S8192x4x1 ![0, 1] bcast_S8192x4_S8192x4x1_0_1 wrapIdx

/-- `0 ≤ i ≤ 8191` at each start index. -/
def inBounds : IVec S8192x4x1 1 :=
  andi (cmpi .sge startIdx (broadcastInDim S8192x4x1 ![] bcast_S_S8192x4x1 (constantI S_ 32 0#32)))
    (cmpi .sle startIdx (broadcastInDim S8192x4x1 ![0, 1, 2] bcast_S1x1x1_S8192x4x1_0_1_2
      (broadcastInDim S1x1x1 ![2] bcast_S1_S1x1x1_2 (constantI S1 32 8191#32))))

/-- The bounds mask over the gathered array: at (s, b, d), whether the start index of (s, b) is in bounds. -/
def rowMask : IVec S8192x4x1024 1 :=
  broadcastInDim S8192x4x1024 ![0, 1] bcast_S8192x4_S8192x4x1024_0_1
    (Host.reduce IntOp.andi inBounds (constantI S_ 1 1#1) reducesTo_S8192x4x1_S8192x4_d2 h_S_)

/-- `jnp.take(pe, pos, axis=0)`: the gathered rows where the index is in bounds, the fill value elsewhere. -/
def taken (pe : FVec Ideal S8192x1024 .f32) : FVec Ideal S8192x4x1024 .f32 :=
  select rowMask (Host.gather gather_S8192x1024_S8192x4x1_S8192x4x1024_2_0_n_n_0_2_11024 pe startIdx)
    (broadcastInDim S8192x4x1024 ![] bcast_S_S8192x4x1024 (constant (F := Ideal) S_ .f32 0x7FC00000#32))

/-- The mean of each row of 1024, kept as a unit last axis. -/
def rowMean (h : FVec Ideal S8192x4x1024 .f32) : FVec Ideal S8192x4x1 .f32 :=
  Host.divf (F := Ideal)
    (broadcastInDim S8192x4x1 ![0, 1] bcast_S8192x4_S8192x4x1_0_1
      (Host.reduceAdd (F := Ideal) h (constant (F := Ideal) S_ .f32 0x00000000#32) reducesTo_S8192x4x1024_S8192x4_d2 h_S_))
    (broadcastInDim S8192x4x1 ![] bcast_S_S8192x4x1 (constant (F := Ideal) S_ .f32 0x44800000#32))

/-- Each entry minus its row's mean. -/
def deviation (h : FVec Ideal S8192x4x1024 .f32) : FVec Ideal S8192x4x1024 .f32 :=
  subf h (broadcastInDim S8192x4x1024 ![0, 1, 2] bcast_S8192x4x1_S8192x4x1024_0_1_2 (rowMean h))

/-- The square root of (the mean of each row's squared deviations, plus ε). -/
def rowSpread (h : FVec Ideal S8192x4x1024 .f32) : FVec Ideal S8192x4x1 .f32 :=
  Host.sqrt (F := Ideal) (addf
    (Host.divf (F := Ideal)
      (broadcastInDim S8192x4x1 ![0, 1] bcast_S8192x4_S8192x4x1_0_1
        (Host.reduceAdd (F := Ideal) (mulf (deviation h) (deviation h)) (constant (F := Ideal) S_ .f32 0x00000000#32)
          reducesTo_S8192x4x1024_S8192x4_d2 h_S_))
      (broadcastInDim S8192x4x1 ![] bcast_S_S8192x4x1 (constant (F := Ideal) S_ .f32 0x44800000#32)))
    (broadcastInDim S8192x4x1 ![] bcast_S_S8192x4x1 (constant (F := Ideal) S_ .f32 0x3727C5AC#32)))

/-- The row normalisation: deviation over spread, times the gain, plus the bias (both along the last axis). -/
def normalised (h : FVec Ideal S8192x4x1024 .f32) (g b : FVec Ideal S1024 .f32) : FVec Ideal S8192x4x1024 .f32 :=
  addf
    (mulf
      (Host.divf (F := Ideal) (deviation h)
        (broadcastInDim S8192x4x1024 ![0, 1, 2] bcast_S8192x4x1_S8192x4x1024_0_1_2 (rowSpread h)))
      (broadcastInDim S8192x4x1024 ![0, 1, 2] bcast_S1x1x1024_S8192x4x1024_0_1_2
        (broadcastInDim S1x1x1024 ![2] bcast_S1024_S1x1x1024_2 g)))
    (broadcastInDim S8192x4x1024 ![0, 1, 2] bcast_S1x1x1024_S8192x4x1024_0_1_2
      (broadcastInDim S1x1x1024 ![2] bcast_S1024_S1x1x1024_2 b))

end Cert.ReferenceIdeal.RefStages

end
-- ==== Proof.RefOut.lean ====
/-
  The reference's run, read: its result buffer holds the composition of the stages of RefStages.lean applied to the
  argument arrays, and the argument arrays end as launched.
-/
import proofs.«118128_g82669530513986_cont_sun_c4_203_9_alg».proof.Proof.RefStages

noncomputable section

namespace Cert.ReferenceIdeal.RefStages

open Cert.ReferenceIdeal Cert.ReferenceIdeal.Gen Idealize.ShloMosaic Idealize.ShloMosaic.TcCoe Idealize.SL.Sem Idealize.ShloMosaic.StableHlo

attribute [local irreducible] Host.reduce Host.gather Host.reduceAdd in
set_option maxRecDepth 8192 in
set_option maxHeartbeats 400000 in
/-- The fold of @main's operations at the result buffer is the composition of the stages: each operation's result at its
    own buffer is its function of its operands' contents, and no other operation writes that buffer. -/
theorem out_eq (V : Valuation τ sig (Elt Ideal)) :
    after (HostRun.ops (F := Ideal)) V (main_v28 : DevRef τ sig)
      = normalised (addf (V (main_arg0 : DevRef τ sig)) (taken (V (main_arg1 : DevRef τ sig))))
          (V (main_arg2 : DevRef τ sig)) (V (main_arg3 : DevRef τ sig)) := by
  after_results_simp
  rfl

/-- No operation writes an argument buffer. -/
theorem arg0_eq (V : Valuation τ sig (Elt Ideal)) :
    after (HostRun.ops (F := Ideal)) V (main_arg0 : DevRef τ sig) = V (main_arg0 : DevRef τ sig) := by
  after_results_simp
theorem arg1_eq (V : Valuation τ sig (Elt Ideal)) :
    after (HostRun.ops (F := Ideal)) V (main_arg1 : DevRef τ sig) = V (main_arg1 : DevRef τ sig) := by
  after_results_simp
theorem arg2_eq (V : Valuation τ sig (Elt Ideal)) :
    after (HostRun.ops (F := Ideal)) V (main_arg2 : DevRef τ sig) = V (main_arg2 : DevRef τ sig) := by
  after_results_simp
theorem arg3_eq (V : Valuation τ sig (Elt Ideal)) :
    after (HostRun.ops (F := Ideal)) V (main_arg3 : DevRef τ sig) = V (main_arg3 : DevRef τ sig) := by
  after_results_simp

/-- Every weakly fair execution of the reference's @main terminates with the result buffer at the stages' composition
    of the argument arrays, and the argument arrays unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28)
        = normalised (addf (m ((c.tc : Thread nD τ).loc main_arg0)) (taken (m ((c.tc : Thread nD τ).loc main_arg1))))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _),
      (h c main_arg0).trans (arg0_eq _), (h c main_arg1).trans (arg1_eq _),
      (h c main_arg2).trans (arg2_eq _), (h c main_arg3).trans (arg3_eq _)⟩)
    (HostRun.run_ops m ρ)

end Cert.ReferenceIdeal.RefStages

end
-- ==== Proof.RealEntries.lean ====
/-
  From the precondition to real entries.

  The precondition says that `|v| < +∞` at every entry `v` of each of the four argument arrays (the four `jnp.all`s
  conjoined).  On the extended reals `|v| = max v (−v)` is `+∞` exactly at the two infinities, so every entry is a real
  number — which is what the law joining the two normalisations needs.
-/
import proofs.«118128_g82669530513986_cont_sun_c4_203_9_alg».proof.Pre_finite_inputs
import proofs.«118128_g82669530513986_cont_sun_c4_203_9_alg».proof.Proof.Gen.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.RealEntries

open Cert.Pre_finite_inputs Cert.Pre_finite_inputs.Gen Idealize.ShloMosaic
open Idealize.ShloMosaic.ValueIdx

instance : Subsingleton S_.Idx := ⟨fun a b => funext fun d => d.elim0⟩

/-- An extended real whose absolute value is below `+∞` is a real number. -/
theorem real_of_abs_lt_inf (v : EReal)
    (h : Ideal.cmp .olt (max v (-v)) (Ideal.ofBits .f32 0x7F800000#32) = 1#1) : ∃ r : ℝ, v = (r : EReal) := by
  have hinf : Ideal.ofBits .f32 0x7F800000#32 = ⊤ := by simp [Ideal.ofBits, Ideal.ieee]
  rw [hinf] at h
  have hlt : max v (-v) < ⊤ := by
    by_contra hc
    unfold Ideal.cmp at h
    simp [hc] at h
  induction v using EReal.rec with
  | bot => simp at hlt
  | top => simp at hlt
  | coe r => exact ⟨r, rfl⟩

/-- Under the precondition every entry of every argument array is a real number. -/
theorem real_entries (x : FVec Ideal S8192x4x1024 .f32) (pe : FVec Ideal S8192x1024 .f32) (g b : FVec Ideal S1024 .f32)
    (h : fn (F := Ideal) x pe g b = fun _ => 1#1) :
    (∀ i, ∃ r : ℝ, x i = (r : EReal)) ∧ (∀ i, ∃ r : ℝ, pe i = (r : EReal))
      ∧ (∀ i, ∃ r : ℝ, g i = (r : EReal)) ∧ (∀ i, ∃ r : ℝ, b i = (r : EReal)) := by
  have h0 := congrFun h ix0
  dsimp only [fn, fn_part1] at h0
  obtain ⟨h123, h4⟩ := IntOp.andi_eq_one.mp h0
  obtain ⟨h12, h3⟩ := IntOp.andi_eq_one.mp h123
  obtain ⟨h1, h2⟩ := IntOp.andi_eq_one.mp h12
  exact ⟨fun i => real_of_abs_lt_inf _ (Host.reduce_andi_all _ _ _ _ ix0 h1 i),
    fun i => real_of_abs_lt_inf _ (Host.reduce_andi_all _ _ _ _ ix0 h2 i),
    fun i => real_of_abs_lt_inf _ (Host.reduce_andi_all _ _ _ _ ix0 h3 i),
    fun i => real_of_abs_lt_inf _ (Host.reduce_andi_all _ _ _ _ ix0 h4 i)⟩

end Cert.Pre_finite_inputs.RealEntries

end
-- ==== Proof.LayerNormLaw.lean ====
/-
  The one algebraic law of this certificate, on the extended reals.

  A row `h` of 1024 numbers is normalised in two spellings.  With `μ = (∑ h) / 1024`:

  * the first computes the variance as `(∑ h²) / 1024 − μ²` and multiplies `h − μ` by the
    reciprocal square root of `variance + ε`;
  * the second computes the variance as `(∑ (h − μ)²) / 1024` and divides `h − μ` by the
    square root of `variance + ε`.

  Both then multiply by a gain and add a bias.  For REAL entries the two variances are one number
  (expand the square and use `∑ h = 1024 μ`), it is not negative, so with `ε > 0` the radicand is
  positive, the reciprocal square root is the inverse of the square root, and dividing by a nonzero
  real is multiplying by its inverse.  None of this holds at an infinite entry (the two variances
  are then junk values of different kinds), which is why the law asks for real entries.
-/
import Idealize.ShloMosaic.PureOps.Ideal

noncomputable section

namespace Cert.LayerNormLaw

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row normalised the first way: variance as mean of squares minus squared mean, then a
    product with the reciprocal square root. -/
def viaRsqrt (c e : EReal) (h : Fin 1024 → EReal) (g b : EReal) (d : Fin 1024) : EReal :=
  (h d - Ideal.div (∑ k, h k) c)
      * Ideal.rsqrt (Ideal.div (∑ k, h k * h k) c - Ideal.div (∑ k, h k) c * Ideal.div (∑ k, h k) c + e)
    * g + b

/-- The row normalised the second way: variance as mean of squared deviations, then a quotient by
    the square root. -/
def viaSqrt (c e : EReal) (h : Fin 1024 → EReal) (g b : EReal) (d : Fin 1024) : EReal :=
  Ideal.div (h d - Ideal.div (∑ k, h k) c)
      (Ideal.sqrt (Ideal.div (∑ k, (h k - Ideal.div (∑ k', h k') c) * (h k - Ideal.div (∑ k', h k') c)) c + e))
    * g + b

/-- Over the reals: the mean of the squared deviations from the mean is the mean of the squares
    minus the square of the mean. -/
theorem variance_two_ways (f : Fin 1024 → ℝ) :
    (∑ k, (f k - (∑ k', f k') * (1 / 1024)) * (f k - (∑ k', f k') * (1 / 1024))) * (1 / 1024)
      = (∑ k, f k * f k) * (1 / 1024) - (∑ k, f k) * (1 / 1024) * ((∑ k, f k) * (1 / 1024)) := by
  have hsq : ∀ k, (f k - (∑ k', f k') * (1 / 1024)) * (f k - (∑ k', f k') * (1 / 1024))
      = f k * f k - 2 * ((∑ k', f k') * (1 / 1024)) * f k
        + (∑ k', f k') * (1 / 1024) * ((∑ k', f k') * (1 / 1024)) := fun k => by ring
  simp only [hsq, Finset.sum_add_distrib, Finset.sum_sub_distrib, ← Finset.mul_sum, Finset.sum_const,
    Finset.card_univ, Fintype.card_fin, nsmul_eq_mul]
  push_cast
  ring

/-- That variance is not negative. -/
theorem variance_nonneg (f : Fin 1024 → ℝ) :
    0 ≤ (∑ k, f k * f k) * (1 / 1024) - (∑ k, f k) * (1 / 1024) * ((∑ k, f k) * (1 / 1024)) := by
  rw [← variance_two_ways]
  exact mul_nonneg (Finset.sum_nonneg fun k _ => mul_self_nonneg _) (by norm_num)

/-- THE LAW: on a row of real numbers, with real gain and bias and `ε > 0`, the two normalisations
    are one extended real. -/
theorem viaRsqrt_eq_viaSqrt (f : Fin 1024 → ℝ) (g b e : ℝ) (he : 0 < e) (d : Fin 1024) :
    viaRsqrt ((1024 : ℝ) : EReal) (e : EReal) (fun k => (f k : EReal)) g b d
      = viaSqrt ((1024 : ℝ) : EReal) (e : EReal) (fun k => (f k : EReal)) g b d := by
  have h0 : (1024 : ℝ) ≠ 0 := by norm_num
  have hS : Ideal.div (∑ k, (f k : EReal)) ((1024 : ℝ) : EReal) = (((∑ k, f k) * (1 / 1024) : ℝ) : EReal) := by
    rw [Ideal.div_coe h0, ← coe_sum, ← EReal.coe_mul]
  have hQ : Ideal.div (∑ k, (f k : EReal) * (f k : EReal)) ((1024 : ℝ) : EReal)
      = (((∑ k, f k * f k) * (1 / 1024) : ℝ) : EReal) := by
    rw [Ideal.div_coe h0]; simp only [← EReal.coe_mul]; rw [← coe_sum, ← EReal.coe_mul]
  have hV : Ideal.div (∑ k, ((f k : EReal) - (((∑ k', f k') * (1 / 1024) : ℝ) : EReal))
        * ((f k : EReal) - (((∑ k', f k') * (1 / 1024) : ℝ) : EReal))) ((1024 : ℝ) : EReal)
      = (((∑ k, (f k - (∑ k', f k') * (1 / 1024)) * (f k - (∑ k', f k') * (1 / 1024))) * (1 / 1024) : ℝ) : EReal) := by
    rw [Ideal.div_coe h0]; simp only [← EReal.coe_sub, ← EReal.coe_mul]; rw [← coe_sum, ← EReal.coe_mul]
  have hpos : 0 < (∑ k, f k * f k) * (1 / 1024) - (∑ k, f k) * (1 / 1024) * ((∑ k, f k) * (1 / 1024)) + e :=
    add_pos_of_nonneg_of_pos (variance_nonneg f) he
  have hsqrt : Real.sqrt ((∑ k, f k * f k) * (1 / 1024) - (∑ k, f k) * (1 / 1024) * ((∑ k, f k) * (1 / 1024)) + e) ≠ 0 :=
    (Real.sqrt_pos.mpr hpos).ne'
  unfold viaRsqrt viaSqrt
  dsimp only
  rw [hS, hQ, hV, variance_two_ways]
  simp only [← EReal.coe_mul, ← EReal.coe_sub, ← EReal.coe_add]
  rw [Ideal.rsqrt_coe, if_neg (not_lt.mpr hpos.le), if_neg hpos.ne', Ideal.sqrt_coe, if_neg (not_lt.mpr hpos.le),
    Ideal.div_coe hsqrt]
  simp only [← EReal.coe_mul, ← EReal.coe_add, one_div]

end Cert.LayerNormLaw

end
-- ==== Proof.KernelValue.lean ====
/-
  What the kernel's result array holds after the run: one whole-array function of the four argument arrays.

  The grid has 16 points; point `t` works on rows `512 t … 512 t + 511` of the input `x : [8192, 4, 1024]`, on the same
  rows of the position table `pe : [8192, 1024]` (one table row serves the four batch entries of an input row), and on the
  whole gain and bias vectors, which the program reshapes to `[1, 1024]` before the region.  For each (row, batch) pair the
  body adds the table row to the input row, takes the sum and the sum of squares over the 1024 entries, and writes
  `(h − mean) · rsqrt(meansq − mean² + ε) · gain + bias`.  So entry (s, b, d) of the result is `LayerNormLaw.viaRsqrt` of
  the row `k ↦ x[s, b, k] + pe[s, k]` at `d`; the sixteen blocks tile the result array, hence the whole array is that
  function.
-/
import proofs.«118128_g82669530513986_cont_sun_c4_203_9_alg».proof.Proof.Gen.KernelIdeal.Value
import proofs.«118128_g82669530513986_cont_sun_c4_203_9_alg».proof.Proof.LayerNormLaw
import Idealize.ShloMosaic.PureOps.Ideal.Laws
import Idealize.ShloMosaic.Lib.ValueIdx
import Idealize.ShloMosaic.Lib.Pipeline.Value
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

/-- The result array as a function of the argument arrays, index by index. -/
def G (x : S8192x4x1024.Idx → EReal) (pe : S8192x1024.Idx → EReal) (g b : S1024.Idx → EReal) :
    S8192x4x1024.Idx → EReal := fun i =>
  LayerNormLaw.viaRsqrt (Ideal.ofBits .f32 0x44800000#32) (Ideal.ofBits .f32 0x3727C5AC#32)
    (fun k => x (ix3 (n0 := 8192) (n1 := 4) (n2 := 1024) (i 0) (i 1) k) + pe (ix2 (n0 := 8192) (n1 := 1024) (i 0) k))
    (g (ix1 (n := 1024) (i 2))) (b (ix1 (n := 1024) (i 2))) (i 2)

/-! ## One block: the body's result at (r, q, d) from the blocks it loads -/

/-- The table block, given a unit batch axis and broadcast over the four batch entries, read at (r, q, k): row `r`,
    entry `k` of the block. -/
theorem tableRow_apply (P1 : Vec Ideal S512x1024 .f32) (r : Fin 512) (q : Fin 4) (k : Fin 1024) :
    broadcastTo S512x4x1024 (shapeCast S512x1x1024 P1 shapeCasts_S512x1024_S512x1x1024) broadcasts_S512x1x1024_S512x4x1024
      (ix3 r q k) = P1 (ix2 r k) := by
  refine (broadcastTo_apply _ _ (ix3 r q k) (ix3 r (0 : Fin 1) k) (fun a => match a with
    | ⟨0, _⟩ => by show r.val = (if (512 : Nat) = 1 then 0 else r.val); rw [if_neg (by decide)]
    | ⟨1, _⟩ => by show 0 = (if (1 : Nat) = 1 then 0 else q.val); rw [if_pos rfl]
    | ⟨2, _⟩ => by show k.val = (if (1024 : Nat) = 1 then 0 else k.val); rw [if_neg (by decide)])).trans ?_
  exact shapeCast_apply _ _ (ix3 r (0 : Fin 1) k) (ix2 r k) (by
    rw [Shape.rowMajor_val_two, Shape.rowMajor_val_three]
    show r.val * 1024 + k.val = (r.val * 1 + 0) * 1024 + k.val; omega)

/-- A lane sum over the last axis of a [512, 4, 1024] block, read at (r, q): the sum over `k` of the entries (r, q, k). -/
theorem laneSum_apply (src : FVec Ideal S512x4x1024 .f32) (r : Fin 512) (q : Fin 4) (j : S512x4.Idx) (hj : j = ix2 r q) :
    multiReduction (F := Ideal) .add [2] S512x4 src 0x00000000#32 reduces_S512x4x1024_S512x4 (.inl rfl) rfl j
      = ∑ k : Fin 1024, src (ix3 r q k) := by
  subst hj
  refine (Ideal.multiReduction_add_single src 0x00000000#32 reduces_S512x4x1024_S512x4 (.inl rfl) rfl (ix2 r q)).trans ?_
  refine Finset.sum_congr rfl fun k _ => congrArg src ?_
  funext a
  match a with
  | ⟨0, _⟩ => rfl
  | ⟨1, _⟩ => rfl
  | ⟨2, _⟩ => rfl

/-- THE BODY'S RESULT AT (r, q, d), for any loaded blocks: the first normalisation of the row `k ↦ P0[r, q, k] + P1[r, k]`
    with gain `P2[0, d]` and bias `P3[0, d]`. -/
theorem block_apply (P0 : Vec Ideal S512x4x1024 .f32) (P1 : Vec Ideal S512x1024 .f32) (P2 P3 : Vec Ideal S1x1024 .f32)
    (r : Fin 512) (q : Fin 4) (d : Fin 1024) :
    Value.E4 P0 P1 P2 P3 (ix3 r q d)
      = LayerNormLaw.viaRsqrt (Ideal.ofBits .f32 0x44800000#32) (Ideal.ofBits .f32 0x3727C5AC#32)
          (fun k => P0 (ix3 r q k) + P1 (ix2 r k)) (P2 (ix2 (0 : Fin 1) d)) (P3 (ix2 (0 : Fin 1) d)) d := by
  have i0 : Value.ix4_0 (ix3 r q d) = ix3 r q d := by
    funext a; match a with | ⟨0, _⟩ => rfl | ⟨1, _⟩ => rfl | ⟨2, _⟩ => rfl
  have i1 : Value.ix4_1 (ix3 r q d) = ix2 r d := by
    funext a; match a with | ⟨0, _⟩ => rfl | ⟨1, _⟩ => rfl
  have i2 : Value.ix4_2 (ix3 r q d) = ix2 r q := by
    funext a; match a with | ⟨0, _⟩ => rfl | ⟨1, _⟩ => rfl
  have i6 : Value.ix4_6 (ix3 r q d) = ix2 (0 : Fin 1) d := by
    funext a; match a with | ⟨0, _⟩ => rfl | ⟨1, _⟩ => rfl
  have hsum : multiReduction (F := Ideal) .add [2] S512x4 (addf P0 (broadcastTo S512x4x1024 (shapeCast S512x1x1024 P1 shapeCasts_S512x1024_S512x1x1024) broadcasts_S512x1x1024_S512x4x1024)) 0x00000000#32 reduces_S512x4x1024_S512x4 (.inl rfl) rfl (ix2 r q)
      = ∑ k : Fin 1024, (P0 (ix3 r q k) + P1 (ix2 r k)) := by
    rw [laneSum_apply _ r q _ rfl]
    exact Finset.sum_congr rfl fun k _ => by rw [addf_apply, tableRow_apply]
  have hsq : multiReduction (F := Ideal) .add [2] S512x4 (mulf (addf P0 (broadcastTo S512x4x1024 (shapeCast S512x1x1024 P1 shapeCasts_S512x1024_S512x1x1024) broadcasts_S512x1x1024_S512x4x1024)) (addf P0 (broadcastTo S512x4x1024 (shapeCast S512x1x1024 P1 shapeCasts_S512x1024_S512x1x1024) broadcasts_S512x1x1024_S512x4x1024))) 0x00000000#32 reduces_S512x4x1024_S512x4 (.inl rfl) rfl (ix2 r q)
      = ∑ k : Fin 1024, (P0 (ix3 r q k) + P1 (ix2 r k)) * (P0 (ix3 r q k) + P1 (ix2 r k)) := by
    rw [laneSum_apply _ r q _ rfl]
    exact Finset.sum_congr rfl fun k _ => by rw [mulf_apply, addf_apply, tableRow_apply]
  show FloatOps.addf (FloatOps.mulf (FloatOps.mulf (FloatOps.subf (FloatOps.addf (P0 (Value.ix4_0 (ix3 r q d))) (P1 (Value.ix4_1 (ix3 r q d)))) (FloatOps.divf (multiReduction (F := Ideal) .add [2] S512x4 _ 0x00000000#32 reduces_S512x4x1024_S512x4 (.inl rfl) rfl (Value.ix4_2 (ix3 r q d))) _)) (FloatOps.rsqrt (FloatOps.addf (FloatOps.subf (FloatOps.divf (multiReduction (F := Ideal) .add [2] S512x4 _ 0x00000000#32 reduces_S512x4x1024_S512x4 (.inl rfl) rfl (Value.ix4_3 (ix3 r q d))) _) (FloatOps.mulf (FloatOps.divf (multiReduction (F := Ideal) .add [2] S512x4 _ 0x00000000#32 reduces_S512x4x1024_S512x4 (.inl rfl) rfl (Value.ix4_4 (ix3 r q d))) _) (FloatOps.divf (multiReduction (F := Ideal) .add [2] S512x4 _ 0x00000000#32 reduces_S512x4x1024_S512x4 (.inl rfl) rfl (Value.ix4_5 (ix3 r q d))) _))) _))) (P2 (Value.ix4_6 (ix3 r q d)))) (P3 (Value.ix4_7 (ix3 r q d))) = _
  rw [i0, i1, show Value.ix4_3 (ix3 r q d) = ix2 r q from i2, show Value.ix4_4 (ix3 r q d) = ix2 r q from i2,
    show Value.ix4_5 (ix3 r q d) = ix2 r q from i2, i2, show Value.ix4_7 (ix3 r q d) = ix2 (0 : Fin 1) d from i6, i6, hsum, hsq]
  rfl

/-! ## From blocks to the array -/

variable (m : (ℓ : Loc nD τ sig) → Buf (Elt Ideal) ℓ) (ρ : Dev nD → PrngReg)

/-- The two normalisations' first spelling respects equal rows, gains, biases and positions. -/
theorem viaRsqrt_congr {c e : EReal} {f f' : Fin 1024 → EReal} {g g' b b' : EReal} {d d' : Fin 1024}
    (hf : ∀ k, f k = f' k) (hg : g = g') (hb : b = b') (hd : d = d') :
    LayerNormLaw.viaRsqrt c e f g b d = LayerNormLaw.viaRsqrt c e f' g' b' d' := by
  subst hg hb hd; rw [funext hf]

theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output block, read at (r, q, d), for any input blocks. -/
theorem out_apply (x0 : Vec Ideal S512x4x1024 .f32) (x1 : Vec Ideal S512x1024 .f32) (x2 x3 : Vec Ideal S1x1024 .f32)
    (r : Fin 512) (q : Fin 4) (d : Fin 1024) :
    out0_4 x0 x1 x2 x3 (ix3 r q d)
      = LayerNormLaw.viaRsqrt (Ideal.ofBits .f32 0x44800000#32) (Ideal.ofBits .f32 0x3727C5AC#32)
          (fun k => x0 (ix3 r q k) + x1 (ix2 r k)) (x2 (ix2 (0 : Fin 1) d)) (x3 (ix2 (0 : Fin 1) d)) d := by
  unfold out0_4
  have l0 : View.ld x0 r0_2 = x0 := View.ld_unit_zero hz3 _ x0
  have l1 : View.ld x1 r0_0 = x1 := View.ld_unit_zero hz2 _ x1
  have l2 : View.ld x2 r0_1 = x2 := View.ld_unit_zero hz2 _ x2
  have l3 : View.ld x3 r0_1 = x3 := View.ld_unit_zero hz2 _ x3
  rw [l0, l1, l2, l3, Value.canon4_eq, block_apply]

/-- The printed index maps, decided over the sixteen grid points: the input rows and the table rows move with the output's
    row block; every other block index is zero. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = win0_4.index t (0 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 3) = 0 ∧ win0_4.index t (2 : Fin 3) = 0 ∧ win0_4.index t (0 : Fin 3) ≤ 15 :=
  (by decide +kernel : ∀ t : Fin grid0.N, _)

/-- Every row block of the output is some point's. -/
theorem idx_onto : ∀ p : Fin 16, ∃ t : Fin cfg0.N, win0_4.index t = ![p.val, 0, 0] :=
  (by decide +kernel : ∀ p : Fin 16, ∃ t : Fin grid0.N, win0_4.index t = ![p.val, 0, 0])

/-- The gain vector as the region finds it: the argument reshaped to one row. -/
theorem gain_row (c : Dev nD) :
    (V m c main_v0 : S1x1024.Idx → EReal) = shapeCast S1x1024 (m ((c : Thread nD τ).loc main_arg2)) shapeCasts_S1024_S1x1024 := by
  dsimp only [V, hostOps0]; after_results; rfl

/-- The bias vector as the region finds it: the argument reshaped to one row. -/
theorem bias_row (c : Dev nD) :
    (V m c main_v1 : S1x1024.Idx → EReal) = shapeCast S1x1024 (m ((c : Thread nD τ).loc main_arg3)) shapeCasts_S1024_S1x1024 := by
  dsimp only [V, hostOps0]; after_results; rfl

/-- A vector reshaped to one row, read at (0, d). -/
theorem oneRow_apply (v : S1024.Idx → EReal) (d : Fin 1024) :
    shapeCast S1x1024 v shapeCasts_S1024_S1x1024 (ix2 (0 : Fin 1) d) = v (ix1 d) :=
  shapeCast_apply _ _ (ix2 (0 : Fin 1) d) (ix1 d) (by
    rw [Shape.rowMajor_val_one, Shape.rowMajor_val_two]; show d.val = 0 * 1024 + d.val; omega)

/-- WHAT POINT `t` WRITES BACK is block `t` of `G` of the argument arrays. -/
theorem flushed_eq (c : Dev nD) (t : Fin cfg0.N) :
    (dats m 0 c).flushed 4 t = ((cfg0.win 4).blk t).view.read (Elt Ideal)
      (G (V m c main_arg0) (V m c main_arg1) (m ((c : Thread nD τ).loc main_arg2)) (m ((c : Thread nD τ).loc main_arg3))) := by
  show (cfg0.win 4).cut (grid0.coords t) ((dats m 0 c).after 4 t) = _
  rw [after0_4]
  obtain ⟨e00, e01, e02, e10, e11, e20, e21, e30, e31, e41, e42, e4le⟩ := idx_facts t
  funext j
  obtain ⟨r, q, d, rfl⟩ : ∃ (r : Fin 512) (q : Fin 4) (d : Fin 1024), j = ix3 r q d := ⟨j 0, j 1, j 2, eq_ix3 j⟩
  show out0_4 (iblk m c 0 t) (iblk m c 1 t) (iblk m c 2 t) (iblk m c 3 t) (ix3 r q d)
    = G (V m c main_arg0) (V m c main_arg1) (m ((c : Thread nD τ).loc main_arg2)) (m ((c : Thread nD τ).loc main_arg3))
        (((cfg0.win 4).blk t).view.emb (ix3 r q d))
  refine (out_apply (iblk m c 0 t) (iblk m c 1 t) (iblk m c 2 t) (iblk m c 3 t) r q d).trans ?_
  unfold G
  refine viaRsqrt_congr (fun k => ?_) ?_ ?_ ?_
  · -- the row: input block and table block against the arrays at the output's row
    have hx : iblk m c 0 t (ix3 r q k) = V m c main_arg0 (ix3 (n0 := 8192) (n1 := 4) (n2 := 1024)
        ((((cfg0.win 4).blk t).view.emb (ix3 r q d)) 0) ((((cfg0.win 4).blk t).view.emb (ix3 r q d)) 1) k) := by
      show V m c main_arg0 (((cfg0.win 0).blk t).view.emb (ix3 r q k)) = _
      refine congrArg (V m c main_arg0) (funext fun a => Fin.ext ?_)
      match a with
      | ⟨0, _⟩ => show win0_0.index t (0 : Fin 3) * 512 + 1 * r.val = win0_4.index t (0 : Fin 3) * 512 + 1 * r.val; omega
      | ⟨1, _⟩ => show win0_0.index t (1 : Fin 3) * 4 + 1 * q.val = win0_4.index t (1 : Fin 3) * 4 + 1 * q.val; omega
      | ⟨2, _⟩ => show win0_0.index t (2 : Fin 3) * 1024 + 1 * k.val = k.val; omega
    have hp : iblk m c 1 t (ix2 r k) = V m c main_arg1 (ix2 (n0 := 8192) (n1 := 1024)
        ((((cfg0.win 4).blk t).view.emb (ix3 r q d)) 0) k) := by
      show V m c main_arg1 (((cfg0.win 1).blk t).view.emb (ix2 r k)) = _
      refine congrArg (V m c main_arg1) (funext fun a => Fin.ext ?_)
      match a with
      | ⟨0, _⟩ => show win0_1.index t (0 : Fin 2) * 512 + 1 * r.val = win0_4.index t (0 : Fin 3) * 512 + 1 * r.val; omega
      | ⟨1, _⟩ => show win0_1.index t (1 : Fin 2) * 1024 + 1 * k.val = k.val; omega
    rw [hx, hp]
  · -- the gain
    show V m c main_v0 (((cfg0.win 2).blk t).view.emb (ix2 (0 : Fin 1) d)) = _
    rw [gain_row]
    refine (congrArg _ (funext fun a => Fin.ext ?_)).trans (oneRow_apply _ d |>.trans (congrArg _ (funext fun a => Fin.ext ?_)))
    · match a with
      | ⟨0, _⟩ => show win0_2.index t (0 : Fin 2) * 1 + 1 * 0 = 0; omega
      | ⟨1, _⟩ => show win0_2.index t (1 : Fin 2) * 1024 + 1 * d.val = d.val; omega
    · match a with
      | ⟨0, _⟩ => show d.val = win0_4.index t (2 : Fin 3) * 1024 + 1 * d.val; omega
  · -- the bias
    show V m c main_v1 (((cfg0.win 3).blk t).view.emb (ix2 (0 : Fin 1) d)) = _
    rw [bias_row]
    refine (congrArg _ (funext fun a => Fin.ext ?_)).trans (oneRow_apply _ d |>.trans (congrArg _ (funext fun a => Fin.ext ?_)))
    · match a with
      | ⟨0, _⟩ => show win0_3.index t (0 : Fin 2) * 1 + 1 * 0 = 0; omega
      | ⟨1, _⟩ => show win0_3.index t (1 : Fin 2) * 1024 + 1 * d.val = d.val; omega
    · match a with
      | ⟨0, _⟩ => show d.val = win0_4.index t (2 : Fin 3) * 1024 + 1 * d.val; omega
  · exact Fin.ext (by show d.val = win0_4.index t (2 : Fin 3) * 1024 + 1 * d.val; omega)

/-- An index of the result array is in point `t`'s block iff each coordinate is in the block's range on its axis. -/
theorem mem_blk (t : Fin cfg0.N) (i : S8192x4x1024.Idx) :
    i ∈ ((cfg0.win 4).blk t).view.set ↔ ∀ a : Fin 3, win0_4.index t a * S512x4x1024.size a ≤ (i a).val
      ∧ (i a).val < win0_4.index t a * S512x4x1024.size a + S512x4x1024.size a := by
  show i ∈ ((View.whole main_v2).slice (win0_4.rect t)).set ↔ _
  rw [View.set_slice_whole, Rect.mem_set_unit]
  exact Iff.rfl

/-- The sixteen blocks cover the result array: row `s` is in the block of the point whose row block is `s / 512`. -/
theorem cover (i : S8192x4x1024.Idx) :
    ∃ t : Fin cfg0.N, (cfg0.win 4).flush t = true ∧ i ∈ ((cfg0.win 4).blk t).view.set := by
  have hi0 : (i 0).val < 8192 := (i 0).isLt
  have hi1 : (i 1).val < 4 := (i 1).isLt
  have hi2 : (i 2).val < 1024 := (i 2).isLt
  obtain ⟨t, ht⟩ := idx_onto ⟨(i 0).val / 512, by omega⟩
  have q0 : win0_4.index t (0 : Fin 3) = (i 0).val / 512 := congrFun ht 0
  have q1 : win0_4.index t (1 : Fin 3) = 0 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 512 ≤ (i 0).val ∧ (i 0).val < win0_4.index t (0 : Fin 3) * 512 + 512; omega
  | ⟨1, _⟩ => show win0_4.index t (1 : Fin 3) * 4 ≤ (i 1).val ∧ (i 1).val < win0_4.index t (1 : Fin 3) * 4 + 4; omega
  | ⟨2, _⟩ => show win0_4.index t (2 : Fin 3) * 1024 ≤ (i 2).val ∧ (i 2).val < win0_4.index t (2 : Fin 3) * 1024 + 1024; omega

/-- THE RESULT ARRAY after the run is `G` of the argument arrays. -/
theorem final (c : Dev nD) :
    (dats m 0 c).arrAt 4 cfg0.N = G (m ((c : Thread nD τ).loc main_arg0)) (m ((c : Thread nD τ).loc main_arg1))
      (m ((c : Thread nD τ).loc main_arg2)) (m ((c : Thread nD τ).loc main_arg3)) := by
  rw [← V_main_arg0 m c, ← V_main_arg1 m c]
  exact (dats m 0 c).arrAt_eq_of_cover 4 _ (fun t _ => flushed_eq m c t) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelValue

end
-- ==== Proof.RefValue.lean ====
/-
  The reference's stages read at an index.

  The start indices of the gather are the row numbers `0 … 8191` as 32-bit words: none is negative, so `jnp.take`'s wrap
  leaves them alone, all are within `[0, 8191]`, so the bounds mask is all ones and the select keeps the gathered rows,
  and the gather's clamp is the identity on them: `taken pe` at (s, b, d) is `pe[s, d]`.  The normalisation at
  (s, b, d) is the second spelling of the row normalisation (`LayerNormLaw.viaSqrt`) of the row `k ↦ h[s, b, k]`.
-/
import proofs.«118128_g82669530513986_cont_sun_c4_203_9_alg».proof.Proof.RefStages
import proofs.«118128_g82669530513986_cont_sun_c4_203_9_alg».proof.Proof.LayerNormLaw
import Idealize.ShloMosaic.PureOps.Ideal.Laws
import Idealize.ShloMosaic.Lib.IdealHost
import Idealize.ShloMosaic.Lib.ValueIdx
import Idealize.ShloMosaic.Lib.Pipeline.Value
import Idealize.ShloMosaic.Lib.Affine

noncomputable section

namespace Cert.ReferenceIdeal.RefValue

open Cert.ReferenceIdeal Cert.ReferenceIdeal.Gen Cert.ReferenceIdeal.RefStages Idealize.ShloMosaic
open Idealize.ShloMosaic.ValueIdx

/-! ## Broadcasts read at an index -/

section Broadcasts
variable {α : Type}

/-- A [8192, 4] array given a unit last axis, read at (s, b, 0). -/
theorem keepdims_apply (v : S8192x4.Idx → α) (h : S8192x4.BroadcastsInDim S8192x4x1 ![0, 1]) (s : Fin 8192) (b : Fin 4)
    (z : Fin 1) : broadcastInDim S8192x4x1 ![0, 1] h v (ix3 s b z) = v (ix2 s b) :=
  broadcastInDim_apply _ _ _ (ix3 s b z) (ix2 s b) (fun a => match a with | ⟨0, _⟩ => rfl | ⟨1, _⟩ => rfl)

/-- A [8192, 4, 1] array broadcast along the last axis, read at (s, b, d). -/
theorem lanes_apply (v : S8192x4x1.Idx → α) (h : S8192x4x1.BroadcastsInDim S8192x4x1024 ![0, 1, 2]) (s : Fin 8192)
    (b : Fin 4) (d : Fin 1024) : broadcastInDim S8192x4x1024 ![0, 1, 2] h v (ix3 s b d) = v (ix3 s b (0 : Fin 1)) :=
  broadcastInDim_apply _ _ _ (ix3 s b d) (ix3 s b (0 : Fin 1))
    (fun a => match a with | ⟨0, _⟩ => rfl | ⟨1, _⟩ => rfl | ⟨2, _⟩ => rfl)

/-- A [8192, 4] array broadcast along a new last axis of 1024, read at (s, b, d). -/
theorem rows_apply (v : S8192x4.Idx → α) (h : S8192x4.BroadcastsInDim S8192x4x1024 ![0, 1]) (s : Fin 8192)
    (b : Fin 4) (d : Fin 1024) : broadcastInDim S8192x4x1024 ![0, 1] h v (ix3 s b d) = v (ix2 s b) :=
  broadcastInDim_apply _ _ _ (ix3 s b d) (ix2 s b) (fun a => match a with | ⟨0, _⟩ => rfl | ⟨1, _⟩ => rfl)

/-- A vector of 1024 broadcast over rows and batch (through [1, 1, 1024]), read at (s, b, d). -/
theorem vector_apply (v : S1024.Idx → α) (h1 : S1024.BroadcastsInDim S1x1x1024 ![2])
    (h2 : S1x1x1024.BroadcastsInDim S8192x4x1024 ![0, 1, 2]) (s : Fin 8192) (b : Fin 4) (d : Fin 1024) :
    broadcastInDim S8192x4x1024 ![0, 1, 2] h2 (broadcastInDim S1x1x1024 ![2] h1 v) (ix3 s b d) = v (ix1 d) :=
  (broadcastInDim_apply _ _ _ (ix3 s b d) (ix3 (0 : Fin 1) (0 : Fin 1) d)
    (fun a => match a with | ⟨0, _⟩ => rfl | ⟨1, _⟩ => rfl | ⟨2, _⟩ => rfl)).trans
  (broadcastInDim_apply _ _ _ (ix3 (0 : Fin 1) (0 : Fin 1) d) (ix1 d) (fun a => match a with | ⟨0, _⟩ => rfl))

end Broadcasts

/-! ## The start indices and the bounds mask -/

/-- A row number below 8192, as a 32-bit word, read signed, is itself. -/
theorem toInt_row (s : Fin 8192) : (BitVec.ofNat 32 s.val).toInt = (s.val : Int) := by
  have hs := s.isLt
  rw [BitVec.toInt_eq_toNat_cond, BitVec.toNat_ofNat]
  have hmod : s.val % 2 ^ 32 = s.val := Nat.mod_eq_of_lt (by omega)
  rw [hmod]
  split <;> omega

theorem rowIdx_apply (s : Fin 8192) (b : Fin 4) : rowIdx (ix2 s b) = BitVec.ofNat 32 s.val := by
  unfold rowIdx
  refine (broadcastInDim_apply _ _ _ (ix2 s b) (ix2 s (0 : Fin 1))
    (fun a => match a with | ⟨0, _⟩ => rfl | ⟨1, _⟩ => rfl)).trans ?_
  refine (broadcastInDim_apply _ _ _ (ix2 s (0 : Fin 1)) (ix1 s) (fun a => match a with | ⟨0, _⟩ => rfl)).trans ?_
  rfl

/-- No row number is negative: the wrap leaves it. -/
theorem wrapIdx_apply (s : Fin 8192) (b : Fin 4) : wrapIdx (ix2 s b) = BitVec.ofNat 32 s.val := by
  unfold wrapIdx
  rw [select_apply]
  have hc : ¬ cmpi .slt rowIdx (broadcastInDim S8192x4 ![] bcast_S_S8192x4 (constantI S_ 32 0#32)) (ix2 s b) = 1#1 := by
    show ¬ IntOp.cmpi .slt (rowIdx (ix2 s b)) (broadcastInDim S8192x4 ![] bcast_S_S8192x4 (constantI S_ 32 0#32) (ix2 s b)) = 1#1
    rw [rowIdx_apply, broadcastInDim_scalar_apply]
    intro h
    have h1 := IntOp.cmpi_slt.mp h
    rw [toInt_row] at h1
    have h0 : (constantI S_ 32 0#32 ix0).toInt = 0 := by decide
    omega
  rw [eq_zero_of_ne_one hc, select_zero, rowIdx_apply]

theorem startIdx_apply (s : Fin 8192) (b : Fin 4) (z : Fin 1) : startIdx (ix3 s b z) = BitVec.ofNat 32 s.val := by
  unfold startIdx
  rw [keepdims_apply, wrapIdx_apply]

/-- Every start index is within `[0, 8191]`. -/
theorem inBounds_all (j : S8192x4x1.Idx) : inBounds j = 1#1 := by
  obtain ⟨s, b, z, rfl⟩ : ∃ (s : Fin 8192) (b : Fin 4) (z : Fin 1), j = ix3 s b z := ⟨j 0, j 1, j 2, eq_ix3 j⟩
  have hs := s.isLt
  have h1 : IntOp.cmpi .sge (startIdx (ix3 s b z))
      (broadcastInDim S8192x4x1 ![] bcast_S_S8192x4x1 (constantI S_ 32 0#32) (ix3 s b z)) = 1#1 := by
    rw [startIdx_apply, broadcastInDim_scalar_apply]
    refine IntOp.cmpi_sge.mpr ?_
    rw [toInt_row]
    have h0 : (constantI S_ 32 0#32 ix0).toInt = 0 := by decide
    omega
  have h2 : IntOp.cmpi .sle (startIdx (ix3 s b z))
      (broadcastInDim S8192x4x1 ![0, 1, 2] bcast_S1x1x1_S8192x4x1_0_1_2
        (broadcastInDim S1x1x1 ![2] bcast_S1_S1x1x1_2 (constantI S1 32 8191#32)) (ix3 s b z)) = 1#1 := by
    rw [startIdx_apply]
    refine IntOp.cmpi_sle.mpr ?_
    rw [toInt_row]
    have h0 : (broadcastInDim S8192x4x1 ![0, 1, 2] bcast_S1x1x1_S8192x4x1_0_1_2
        (broadcastInDim S1x1x1 ![2] bcast_S1_S1x1x1_2 (constantI S1 32 8191#32)) (ix3 s b z)).toInt = 8191 := by
      show (8191#32 : BitVec 32).toInt = 8191
      decide
    omega
  show IntOp.andi (IntOp.cmpi .sge (startIdx (ix3 s b z)) _) (IntOp.cmpi .sle (startIdx (ix3 s b z)) _) = 1#1
  rw [h1, h2]
  decide

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = l
  induction l with
  | nil => rfl
  | cons a l ih =>
    rw [List.foldl_cons, hx a]
    have h11 : IntOp.andi (1#1 : BitVec 1) 1#1 = 1#1 := by decide
    rw [h11]; exact ih

theorem rowMask_all (j : S8192x4x1024.Idx) : rowMask j = 1#1 := by
  obtain ⟨s, b, d, rfl⟩ : ∃ (s : Fin 8192) (b : Fin 4) (d : Fin 1024), j = ix3 s b d := ⟨j 0, j 1, j 2, eq_ix3 j⟩
  unfold rowMask
  rw [rows_apply]
  exact reduce_andi_ones _ _ _ _ inBounds_all rfl _

/-! ## The gather -/

/-- The gather of table rows at start indices that are the row numbers: entry (s, b, d) is the table's (s, d). -/
theorem gather_rows (pe : S8192x1024.Idx → EReal) (idx : IVec S8192x4x1 32) (s : Fin 8192) (b : Fin 4) (d : Fin 1024)
    (hidx : idx (ix3 s b (0 : Fin 1)) = BitVec.ofNat 32 s.val) :
    Host.gather gather_S8192x1024_S8192x4x1_S8192x4x1024_2_0_n_n_0_2_11024 pe idx (ix3 s b d) = pe (ix2 s d) := by
  have hs := s.isLt
  unfold Host.gather
  refine congrArg pe (funext fun a => Fin.ext ?_)
  match a with
  | ⟨0, _⟩ =>
    show gather_S8192x1024_S8192x4x1_S8192x4x1024_2_0_n_n_0_2_11024.start (ix3 s b d) idx 0
      + gather_S8192x1024_S8192x4x1_S8192x4x1024_2_0_n_n_0_2_11024.batchCoord (ix3 s b d) 0
      + gather_S8192x1024_S8192x4x1_S8192x4x1024_2_0_n_n_0_2_11024.offCoord (ix3 s b d) 0 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S8192x4x1_S8192x4x1024_2_0_n_n_0_2_11024.startIndexMap from
      List.mem_singleton.mpr rfl)]
    have hsi : gather_S8192x1024_S8192x4x1_S8192x4x1024_2_0_n_n_0_2_11024.siIdx (ix3 s b d)
        ⟨List.idxOf (0 : Fin 2) gather_S8192x1024_S8192x4x1_S8192x4x1024_2_0_n_n_0_2_11024.startIndexMap,
          List.idxOf_lt_length_iff.2 (List.mem_singleton.mpr rfl)⟩ = ix3 s b (0 : Fin 1) := by
      funext c; refine Fin.ext ?_
      match c with
      | ⟨0, _⟩ => rfl
      | ⟨1, _⟩ => rfl
      | ⟨2, _⟩ => rfl
    rw [hsi, hidx, toInt_row]
    show min ((s.val : Int)).toNat (8192 - 1) = s.val
    rw [Int.toNat_natCast]
    omega
  | ⟨1, _⟩ =>
    show gather_S8192x1024_S8192x4x1_S8192x4x1024_2_0_n_n_0_2_11024.start (ix3 s b d) idx 1
      + gather_S8192x1024_S8192x4x1_S8192x4x1024_2_0_n_n_0_2_11024.batchCoord (ix3 s b d) 1
      + gather_S8192x1024_S8192x4x1_S8192x4x1024_2_0_n_n_0_2_11024.offCoord (ix3 s b d) 1 = d.val
    have h1 : gather_S8192x1024_S8192x4x1_S8192x4x1024_2_0_n_n_0_2_11024.start (ix3 s b d) idx 1 = 0 := rfl
    have h2 : gather_S8192x1024_S8192x4x1_S8192x4x1024_2_0_n_n_0_2_11024.batchCoord (ix3 s b d) 1 = 0 :=
      GatherDims.batchCoord_eq_zero _ _ _ List.not_mem_nil
    have h3 : gather_S8192x1024_S8192x4x1_S8192x4x1024_2_0_n_n_0_2_11024.offCoord (ix3 s b d) 1 = d.val := rfl
    rw [h1, h2, h3]
    omega

theorem taken_apply (pe : FVec Ideal S8192x1024 .f32) (s : Fin 8192) (b : Fin 4) (d : Fin 1024) :
    taken pe (ix3 s b d) = pe (ix2 s d) := by
  unfold taken
  rw [select_apply, rowMask_all, select_one]
  exact gather_rows pe startIdx s b d (startIdx_apply s b 0)

/-! ## The normalisation -/

/-- The host's square root at an index. -/
theorem hostSqrt_apply {s : Shape} {φ : FTy} (x : FVec Ideal s φ) (i : s.Idx) : Host.sqrt x i = Ideal.sqrt (x i) := rfl

/-- The host's sum over the last axis from zero, read at (s, q). -/
theorem rowSum_apply (x : FVec Ideal S8192x4x1024 .f32) (s : Fin 8192) (q : Fin 4) :
    Host.reduceAdd (F := Ideal) x (constant (F := Ideal) S_ .f32 0x00000000#32) reducesTo_S8192x4x1024_S8192x4_d2 h_S_ (ix2 s q)
      = ∑ k : Fin 1024, x (ix3 s q k) := by
  have hred : S8192x4x1024.Reduces [2] S8192x4 := by decide
  rw [hostReduceAdd_apply]
  refine (Ideal.hostReduceAdd_single _ hred x _ (ix2 s q)).trans ?_
  rw [constant_apply, Ideal.ofBits_zero_f32, zero_add]
  refine Finset.sum_congr rfl fun k _ => congrArg x ?_
  funext a
  match a with
  | ⟨0, _⟩ => rfl
  | ⟨1, _⟩ => rfl
  | ⟨2, _⟩ => rfl

theorem rowMean_apply (h : FVec Ideal S8192x4x1024 .f32) (s : Fin 8192) (q : Fin 4) (z : Fin 1) :
    rowMean h (ix3 s q z) = Ideal.div (∑ k : Fin 1024, h (ix3 s q k)) (Ideal.ofBits .f32 0x44800000#32) := by
  unfold rowMean
  rw [hostDivf_apply, keepdims_apply, rowSum_apply, broadcastInDim_scalar_apply, constant_apply]

theorem deviation_apply (h : FVec Ideal S8192x4x1024 .f32) (s : Fin 8192) (q : Fin 4) (d : Fin 1024) :
    deviation h (ix3 s q d)
      = h (ix3 s q d) - Ideal.div (∑ k : Fin 1024, h (ix3 s q k)) (Ideal.ofBits .f32 0x44800000#32) := by
  unfold deviation
  rw [subf_apply, lanes_apply, rowMean_apply]

theorem rowSpread_apply (h : FVec Ideal S8192x4x1024 .f32) (s : Fin 8192) (q : Fin 4) (z : Fin 1) :
    rowSpread h (ix3 s q z)
      = Ideal.sqrt (Ideal.div (∑ k : Fin 1024,
            (h (ix3 s q k) - Ideal.div (∑ k' : Fin 1024, h (ix3 s q k')) (Ideal.ofBits .f32 0x44800000#32))
              * (h (ix3 s q k) - Ideal.div (∑ k' : Fin 1024, h (ix3 s q k')) (Ideal.ofBits .f32 0x44800000#32)))
          (Ideal.ofBits .f32 0x44800000#32) + Ideal.ofBits .f32 0x3727C5AC#32) := by
  unfold rowSpread
  rw [hostSqrt_apply, addf_apply, hostDivf_apply, keepdims_apply, rowSum_apply, broadcastInDim_scalar_apply, broadcastInDim_scalar_apply,
    constant_apply, constant_apply]
  simp only [mulf_apply, deviation_apply]

/-- THE REFERENCE'S NORMALISATION AT (s, q, d): the second spelling of the row normalisation, of row (s, q) of `h`. -/
theorem normalised_apply (h : FVec Ideal S8192x4x1024 .f32) (g b : FVec Ideal S1024 .f32) (s : Fin 8192) (q : Fin 4)
    (d : Fin 1024) :
    normalised h g b (ix3 s q d)
      = LayerNormLaw.viaSqrt (Ideal.ofBits .f32 0x44800000#32) (Ideal.ofBits .f32 0x3727C5AC#32)
          (fun k => h (ix3 s q k)) (g (ix1 d)) (b (ix1 d)) d := by
  unfold normalised LayerNormLaw.viaSqrt
  rw [addf_apply, mulf_apply, hostDivf_apply, deviation_apply, lanes_apply, rowSpread_apply, vector_apply, vector_apply]

end Cert.ReferenceIdeal.RefValue

end
-- ==== Proof.Consts.lean ====
/-
  The two float constants of the normalisation, as the real numbers their bit patterns denote: the row length `1024`
  and the variance offset `ε`, the single-precision number nearest `10⁻⁵`, which is `10995116 · 2⁻⁴⁰` and positive.
-/
import Idealize.ShloMosaic.PureOps.Ideal

noncomputable section

namespace Cert.Consts

open Idealize.ShloMosaic

/-- The pattern `0x44800000` denotes the real `1024`. -/
theorem ofBits_1024 : Ideal.ofBits .f32 0x44800000#32 = ((1024 : ℝ) : EReal) := by
  simp [Ideal.ofBits, Ideal.ieee, -EReal.coe_mul]; norm_num

/-- The pattern `0x3727C5AC` denotes the real `10995116 / 2⁴⁰`. -/
theorem ofBits_eps : Ideal.ofBits .f32 0x3727C5AC#32 = ((10995116 / 1099511627776 : ℝ) : EReal) := by
  simp [Ideal.ofBits, Ideal.ieee, -EReal.coe_mul]; norm_num

theorem eps_pos : (0 : ℝ) < 10995116 / 1099511627776 := by norm_num

end Cert.Consts

end
-- ==== Proof.Bridge.lean ====
/-
  The kernel's result array and the reference's are one function of the argument arrays.

  At (s, b, d) the kernel holds the first spelling of the row normalisation of the row `k ↦ x[s, b, k] + pe[s, k]`
  (KernelValue.lean) and the reference the second spelling of the same row — its gathered table row is `pe[s, ·]`
  (RefValue.lean).  Every entry being a real number under the precondition (RealEntries.lean), the rows are rows of reals,
  `1024` and `ε > 0` are reals (Consts.lean), and the two spellings agree (LayerNormLaw.lean).
-/
import proofs.«118128_g82669530513986_cont_sun_c4_203_9_alg».proof.Proof.KernelValue
import proofs.«118128_g82669530513986_cont_sun_c4_203_9_alg».proof.Proof.RefValue
import proofs.«118128_g82669530513986_cont_sun_c4_203_9_alg».proof.Proof.Consts

noncomputable section

namespace Cert.Bridge

open Idealize.ShloMosaic Idealize.ShloMosaic.ValueIdx

/-- The reference's result is the kernel's, on arrays of real numbers. -/
theorem result_eq (x : Cert.ReferenceIdeal.S8192x4x1024.Idx → EReal) (pe : Cert.ReferenceIdeal.S8192x1024.Idx → EReal)
    (g b : Cert.ReferenceIdeal.S1024.Idx → EReal)
    (hx : ∀ i, ∃ r : ℝ, x i = (r : EReal)) (hpe : ∀ i, ∃ r : ℝ, pe i = (r : EReal))
    (hg : ∀ i, ∃ r : ℝ, g i = (r : EReal)) (hb : ∀ i, ∃ r : ℝ, b i = (r : EReal)) :
    Cert.ReferenceIdeal.RefStages.normalised (addf (F := Ideal) x (Cert.ReferenceIdeal.RefStages.taken pe)) g b
      = Cert.KernelIdeal.KernelValue.G x pe g b := by
  choose xr hxr using hx
  choose per hper using hpe
  choose gr hgr using hg
  choose br hbr using hb
  funext i
  obtain ⟨s, q, d, rfl⟩ : ∃ (s : Fin 8192) (q : Fin 4) (d : Fin 1024), i = ix3 s q d := ⟨i 0, i 1, i 2, eq_ix3 i⟩
  rw [Cert.ReferenceIdeal.RefValue.normalised_apply]
  unfold Cert.KernelIdeal.KernelValue.G
  have hrow : (fun k : Fin 1024 => addf (F := Ideal) x (Cert.ReferenceIdeal.RefStages.taken pe) (ix3 s q k))
      = fun k : Fin 1024 => ((xr (ix3 s q k) + per (ix2 s k) : ℝ) : EReal) := funext fun k => by
    rw [addf_apply, Cert.ReferenceIdeal.RefValue.taken_apply, hxr, hper, EReal.coe_add]
  have hrow' : (fun k : Fin 1024 => x (ix3 (n0 := 8192) (n1 := 4) (n2 := 1024) (ix3 s q d 0) (ix3 s q d 1) k)
        + pe (ix2 (n0 := 8192) (n1 := 1024) (ix3 s q d 0) k))
      = fun k : Fin 1024 => ((xr (ix3 s q k) + per (ix2 s k) : ℝ) : EReal) := funext fun k => by
    show x (ix3 s q k) + pe (ix2 s k) = _
    rw [hxr, hper, EReal.coe_add]
  rw [hrow, hrow']
  show LayerNormLaw.viaSqrt _ _ _ (g (ix1 d)) (b (ix1 d)) d = LayerNormLaw.viaRsqrt _ _ _ (g (ix1 d)) (b (ix1 d)) d
  rw [hgr, hbr, Cert.Consts.ofBits_1024, Cert.Consts.ofBits_eps]
  exact (LayerNormLaw.viaRsqrt_eq_viaSqrt _ _ _ _ Cert.Consts.eps_pos d).symm

end Cert.Bridge

end
-- ==== Proof.lean ====
/-
  Positional-embedding add followed by a row normalisation: the Pallas kernel against its jnp reference, at the ideal
  values (extended reals, exact operations).

  Both programs form `h[s, b, ·] = x[s, b, ·] + pos_table[s, ·]` — the reference by a gather of table rows at the row
  numbers `0 … 8191`, which is the table itself; the kernel by loading the table block that moves with the input block —
  and normalise each row of 1024 entries: subtract the mean, scale by the inverse root of the variance plus `ε`, multiply
  by the gain and add the bias.  The kernel takes the variance as mean of squares minus squared mean and multiplies by a
  reciprocal square root; the reference takes it as the mean of squared deviations and divides by a square root.  On
  rows of real numbers the two are equal (Proof/LayerNormLaw.lean), and the precondition makes every entry real
  (Proof/RealEntries.lean).  The kernel's array is read off its sixteen blocks (Proof/KernelValue.lean), the reference's
  off its operations one at a time (Proof/RefRun.lean, RefStages.lean, RefOut.lean, RefValue.lean); Proof/Bridge.lean sets
  them side by side.  The idealisation rewrote nothing, so `preserves` is `True`.
-/
import proofs.«118128_g82669530513986_cont_sun_c4_203_9_alg».proof.Defs
import proofs.«118128_g82669530513986_cont_sun_c4_203_9_alg».proof.Proof.Gen.Kernel
import proofs.«118128_g82669530513986_cont_sun_c4_203_9_alg».proof.Proof.Gen.Kernel.Skeleton
import proofs.«118128_g82669530513986_cont_sun_c4_203_9_alg».proof.Proof.Gen.Kernel.Launch
import proofs.«118128_g82669530513986_cont_sun_c4_203_9_alg».proof.Proof.Gen.Kernel.Points
import proofs.«118128_g82669530513986_cont_sun_c4_203_9_alg».proof.Proof.Gen.Kernel.Frame
import proofs.«118128_g82669530513986_cont_sun_c4_203_9_alg».proof.Proof.Gen.KernelIdeal
import proofs.«118128_g82669530513986_cont_sun_c4_203_9_alg».proof.Proof.Gen.KernelIdeal.Skeleton
import proofs.«118128_g82669530513986_cont_sun_c4_203_9_alg».proof.Proof.Gen.KernelIdeal.Launch
import proofs.«118128_g82669530513986_cont_sun_c4_203_9_alg».proof.Proof.Gen.KernelIdeal.Points
import proofs.«118128_g82669530513986_cont_sun_c4_203_9_alg».proof.Proof.Gen.KernelIdeal.Frame
import proofs.«118128_g82669530513986_cont_sun_c4_203_9_alg».proof.Proof.Gen.KernelIdeal.Value
import proofs.«118128_g82669530513986_cont_sun_c4_203_9_alg».proof.Proof.Gen.ReferenceIdeal
import proofs.«118128_g82669530513986_cont_sun_c4_203_9_alg».proof.Proof.Gen.Pre_finite_inputs
import proofs.«118128_g82669530513986_cont_sun_c4_203_9_alg».proof.Proof.RefOut
import proofs.«118128_g82669530513986_cont_sun_c4_203_9_alg».proof.Proof.RealEntries
import proofs.«118128_g82669530513986_cont_sun_c4_203_9_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a straight line of host operations: it runs, and no operation writes an argument. -/
theorem frame_referenceIdeal : Cert.frame_ReferenceIdeal := fun m ρ _ =>
  (θ_run Cert.ReferenceIdeal.defs _ _).mono (fun _ h c => (h c).2) (Cert.ReferenceIdeal.RefStages.run m ρ)

/-- Both runs end with the result array at one function of the argument arrays: the kernel's by its blocks, the
    reference's by its stages, equal on the real entries the precondition gives. -/
theorem algebraic : Cert.algebraic_KernelIdeal_ReferenceIdeal := by
  intro m ρ m' ρ' hpre hagree
  refine ⟨fun c => Cert.KernelIdeal.KernelValue.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KernelValue.run m ρ, ?_⟩
  refine (θ_run Cert.ReferenceIdeal.defs _ _).mono (fun _ h c => ⟨(h c).1.trans ?_, (h c).2⟩)
    (Cert.ReferenceIdeal.RefStages.run m' ρ')
  rw [(hagree c).1, (hagree c).2.1, (hagree c).2.2.1, (hagree c).2.2.2]
  obtain ⟨hx, hpe, hg, hb⟩ := Cert.Pre_finite_inputs.RealEntries.real_entries _ _ _ _ (hpre c)
  exact Cert.Bridge.result_eq _ _ _ _ hx hpe hg hb

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
